-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S512 .f32) (main_arg9 : FVec F S512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S128 .f32) (main_arg5 : FVec F S128 .f32) (main_arg6 : FVec F S512x128 .f32) (main_arg7 : FVec F S512 .f32) (main_arg8 : FVec F S512 .f32) (main_arg9 : FVec F S512 .f32) (main_arg10 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S32x512x64x64 .f32) (main_arg1 : FVec F S128x512 .f32) (main_arg2 : FVec F S128 .f32) (main_arg3 : FVec F S128 .f32) (main_arg4 : FVec F S128 .f32) (main_arg5 : FVec F S128 .f32) (main_arg6 : FVec F S512x128 .f32) (main_arg7 : FVec F S512 .f32) (main_arg8 : FVec F S512 .f32) (main_arg9 : FVec F S512 .f32) (main_arg10 : FVec F S512 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S32x512x1x1 : Shape := ⟨4, ![32, 512, 1, 1]⟩
abbrev S4x128x64x64 : Shape := ⟨4, ![4, 128, 64, 64]⟩
abbrev S4x128x1x1 : Shape := ⟨4, ![4, 128, 1, 1]⟩
abbrev S4x128x64 : Shape := ⟨3, ![4, 128, 64]⟩
abbrev S4x128 : Shape := ⟨2, ![4, 128]⟩
abbrev S32x512 : Shape := ⟨2, ![32, 512]⟩
abbrev S32x128 : Shape := ⟨2, ![32, 128]⟩
abbrev S1x128 : Shape := ⟨2, ![1, 128]⟩
abbrev S_ : Shape := ⟨0, ![]⟩
abbrev S1x512 : Shape := ⟨2, ![1, 512]⟩
abbrev S1x512x1x1 : Shape := ⟨4, ![1, 512, 1, 1]⟩
abbrev S1x128x1x1 : Shape := ⟨4, ![1, 128, 1, 1]⟩

abbrev nBuf : Space → Nat
  | .hbm => 45
  | .vmem => 12
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x128, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S32x512x1x1, .f32⟩
  | .hbm, ⟨12, _⟩ => ⟨S32x512, .f32⟩
  | .hbm, ⟨13, _⟩ => ⟨S32x128, .f32⟩
  | .hbm, ⟨14, _⟩ => ⟨S1x128, .f32⟩
  | .hbm, ⟨15, _⟩ => ⟨S32x128, .f32⟩
  | .hbm, ⟨16, _⟩ => ⟨S32x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S32x128, .f32⟩
  | .hbm, ⟨24, _⟩ => ⟨S32x128, .f32⟩
  | .hbm, ⟨25, _⟩ => ⟨S1x128, .f32⟩
  | .hbm, ⟨26, _⟩ => ⟨S32x128, .f32⟩
  | .hbm, ⟨27, _⟩ => ⟨S32x128, .f32⟩
  | .hbm, ⟨28, _⟩ => ⟨S_, .f32⟩
  | .hbm, ⟨29, _⟩ => ⟨S32x128, .f32⟩
  | .hbm, ⟨30, _⟩ => ⟨S32x128, .f32⟩
  | .hbm, ⟨31, _⟩ => ⟨S32x512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S32x512, .f32⟩
  | .hbm, ⟨41, _⟩ => ⟨S32x512, .f32⟩
  | .hbm, ⟨42, _⟩ => ⟨S32x512x1x1, .f32⟩
  | .hbm, ⟨43, _⟩ => ⟨S1x512x1x1, .f32⟩
  | .hbm, ⟨44, _⟩ => ⟨S32x512x64x64, .f32⟩
  | .local _ .vmem, ⟨0, _⟩ => ⟨S4x128x64x64, .f32⟩
  | .local _ .vmem, ⟨1, _⟩ => ⟨S4x128x64x64, .f32⟩
  | .local _ .vmem, ⟨2, _⟩ => ⟨S4x128x1x1, .f32⟩
  | .local _ .vmem, ⟨3, _⟩ => ⟨S4x128x1x1, .f32⟩
  | .local _ .vmem, ⟨4, _⟩ => ⟨S4x128x64x64, .f32⟩
  | .local _ .vmem, ⟨5, _⟩ => ⟨S4x128x64x64, .f32⟩
  | .local _ .vmem, ⟨6, _⟩ => ⟨S4x128x1x1, .f32⟩
  | .local _ .vmem, ⟨7, _⟩ => ⟨S4x128x1x1, .f32⟩
  | .local _ .vmem, ⟨8, _⟩ => ⟨S1x128x1x1, .f32⟩
  | .local _ .vmem, ⟨9, _⟩ => ⟨S1x128x1x1, .f32⟩
  | .local _ .vmem, ⟨10, _⟩ => ⟨S4x128x64x64, .f32⟩
  | .local _ .vmem, ⟨11, _⟩ => ⟨S4x128x64x64, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S4x128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x128x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x128x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S4x128x64x64_S4x128x64x64_0_0_0_0 : ∀ a, (![0, 0, 0, 0] : Fin 4 → Nat) a + S4x128x64x64.size a ≤ S4x128x64x64.size a
  h_S4x128x64x64 : 0 < S4x128x64x64.numel
  reduces_S4x128x64x64_S4x128x64 : S4x128x64x64.Reduces [3] S4x128x64
  reduces_S4x128x64_S4x128 : S4x128x64.Reduces [2] S4x128
  shapeCasts_S4x128_S4x128x1x1 : S4x128.ShapeCasts S4x128x1x1
  inb_S4x128x1x1_S4x128x1x1_0_0_0_0 : ∀ a, (![0, 0, 0, 0] : Fin 4 → Nat) a + S4x128x1x1.size a ≤ S4x128x1x1.size a
  h_S4x128x1x1 : 0 < S4x128x1x1.numel
  shapeCasts_S32x512x1x1_S32x512 : S32x512x1x1.ShapeCasts S32x512
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S128 : S_.BroadcastsInDim S128 (![] : Fin 0 → Fin S128.rank)
  bcast_S_S32x128 : S_.BroadcastsInDim S32x128 (![] : Fin 0 → Fin S32x128.rank)
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S32x512_S32x512x1x1 : S32x512.ShapeCasts S32x512x1x1
  shapeCasts_S512_S1x512x1x1 : S512.ShapeCasts S1x512x1x1
  shapeCasts_S4x128x1x1_S4x128x1x1 : S4x128x1x1.ShapeCasts S4x128x1x1
  broadcasts_S4x128x1x1_S4x128x64x64 : S4x128x1x1.Broadcasts S4x128x64x64
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  broadcasts_S1x128x1x1_S4x128x64x64 : S1x128x1x1.Broadcasts S4x128x64x64
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x64x64.size a ≤ S32x512x64x64.size a
  hwx0_0 : ∀ i : grid0.Coords, EltTy.bits .f32 = 32 ∨ (Rect.block (s := S32x512x64x64) S4x128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x1x1.size a ≤ S32x512x1x1.size a
  hwx0_1 : ∀ i : grid0.Coords, EltTy.bits .f32 = 32 ∨ (Rect.block (s := S32x512x1x1) S4x128x1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x64x64.size a ≤ S32x512x64x64.size a
  hwx1_0 : ∀ i : grid1.Coords, EltTy.bits .f32 = 32 ∨ (Rect.block (s := S32x512x64x64) S4x128x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x128x1x1.size a ≤ S32x512x1x1.size a
  hwx1_1 : ∀ i : grid1.Coords, EltTy.bits .f32 = 32 ∨ (Rect.block (s := S32x512x1x1) S4x128x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1x1.size a ≤ S1x512x1x1.size a
  hwx1_2 : ∀ i : grid1.Coords, EltTy.bits .f32 = 32 ∨ (Rect.block (s := S1x512x1x1) S1x128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x128x64x64.size a ≤ S32x512x64x64.size a
  hwx1_3 : ∀ i : grid1.Coords, EltTy.bits .f32 = 32 ∨ (Rect.block (s := S32x512x64x64) S4x128x64x64.size (cc1_transform_3 i) (hinb1_3 i)).WholeWords (EltTy.packing .f32)

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

abbrev win0_0 : Pipeline.Window sig grid0 :=
  Pipeline.Window.ofSpec (Memref.whole main_arg0) S4x128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x1x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4x128x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4x128x64x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x64x64 : Shape := ⟨4, ![32, 512, 64, 64]⟩
abbrev S128x512 : Shape := ⟨2, ![128, 512]⟩
abbrev S128 : Shape := ⟨1, ![128]⟩
abbrev S512x128 : Shape := ⟨2, ![512, 128]⟩
abbrev S512 : Shape := ⟨1, ![512]⟩
abbrev S_ : Shape := ⟨0, ![]⟩
abbrev S32x512 : Shape := ⟨2, ![32, 512]⟩
abbrev S32x128 : Shape := ⟨2, ![32, 128]⟩
abbrev S1x128 : Shape := ⟨2, ![1, 128]⟩
abbrev S32x512x1x1 : Shape := ⟨4, ![32, 512, 1, 1]⟩
abbrev S1x512x1x1 : Shape := ⟨4, ![1, 512, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S128x512, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S512x128, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S32x512, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S32x128, .f32⟩
  | .hbm, ⟨17, _⟩ => ⟨S1x128, .f32⟩
  | .hbm, ⟨18, _⟩ => ⟨S32x128, .f32⟩
  | .hbm, ⟨19, _⟩ => ⟨S32x128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S32x128, .f32⟩
  | .hbm, ⟨27, _⟩ => ⟨S32x128, .f32⟩
  | .hbm, ⟨28, _⟩ => ⟨S1x128, .f32⟩
  | .hbm, ⟨29, _⟩ => ⟨S32x128, .f32⟩
  | .hbm, ⟨30, _⟩ => ⟨S32x128, .f32⟩
  | .hbm, ⟨31, _⟩ => ⟨S_, .f32⟩
  | .hbm, ⟨32, _⟩ => ⟨S32x128, .f32⟩
  | .hbm, ⟨33, _⟩ => ⟨S32x128, .f32⟩
  | .hbm, ⟨34, _⟩ => ⟨S32x512, .f32⟩
  | .hbm, ⟨35, _⟩ => ⟨S32x512x1x1, .f32⟩
  | .hbm, ⟨36, _⟩ => ⟨S32x512x64x64, .f32⟩
  | .hbm, ⟨37, _⟩ => ⟨S32x512x64x64, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S512, .f32⟩
  | .hbm, ⟨43, _⟩ => ⟨S1x512x1x1, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512, .f32⟩
  | .hbm, ⟨49, _⟩ => ⟨S512, .f32⟩
  | .hbm, ⟨50, _⟩ => ⟨S512, .f32⟩
  | .hbm, ⟨51, _⟩ => ⟨S1x512x1x1, .f32⟩
  | .hbm, ⟨52, _⟩ => ⟨S32x512x64x64, .f32⟩
  | .hbm, ⟨53, _⟩ => ⟨S32x512x64x64, .f32⟩
  | .hbm, ⟨54, _⟩ => ⟨S32x512x64x64, .f32⟩
  | .hbm, ⟨55, _⟩ => ⟨S32x512x64x64, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S128 : S_.BroadcastsInDim S128 (![] : Fin 0 → Fin S128.rank)
  bcast_S_S32x128 : S_.BroadcastsInDim S32x128 (![] : Fin 0 → Fin S32x128.rank)
  bcast_S32x512_S32x512x1x1_0_1 : S32x512.BroadcastsInDim S32x512x1x1 (![0, 1] : Fin 2 → Fin S32x512x1x1.rank)
  bcast_S32x512x1x1_S32x512x64x64_0_1_2_3 : S32x512x1x1.BroadcastsInDim S32x512x64x64 (![0, 1, 2, 3] : Fin 4 → Fin S32x512x64x64.rank)
  bcast_S_S512 : S_.BroadcastsInDim S512 (![] : Fin 0 → Fin S512.rank)
  bcast_S512_S1x512x1x1_1 : S512.BroadcastsInDim S1x512x1x1 (![1] : Fin 1 → Fin S1x512x1x1.rank)
  bcast_S1x512x1x1_S32x512x64x64_0_1_2_3 : S1x512x1x1.BroadcastsInDim S32x512x64x64 (![0, 1, 2, 3] : Fin 4 → Fin S32x512x64x64.rank)
  dot_S32x512_S128x512_S32x128_1_1_0_0_n_n_wf : DotDims.WF S32x512 S128x512 S32x128 [1] [1] [0] [0] [] []
  dot_S32x128_S512x128_S32x512_1_1_0_0_n_n_wf : DotDims.WF S32x128 S512x128 S32x512 [1] [1] [0] [0] [] []

variable [Facts₀]

def dot_S32x512_S128x512_S32x128_1_1_0_0_n_n : DotDims S32x512 S128x512 S32x128 where
  lhsContracting := [1]
  rhsContracting := [1]
  lhsNonContracting := [0]
  rhsNonContracting := [0]
  lhsBatch := []
  rhsBatch := []
  wf := dot_S32x512_S128x512_S32x128_1_1_0_0_n_n_wf
def dot_S32x128_S512x128_S32x512_1_1_0_0_n_n : DotDims S32x128 S512x128 S32x512 where
  lhsContracting := [1]
  rhsContracting := [1]
  lhsNonContracting := [0]
  rhsNonContracting := [0]
  lhsBatch := []
  rhsBatch := []
  wf := dot_S32x128_S512x128_S32x512_1_1_0_0_n_n_wf

class Facts : Prop extends Facts₀ where

variable [Facts]
-- ==== Proof.KernelRun.lean ====
/-
  The idealized kernel's run with its result NAMED.  @main is five segments: the pooling region, three stretches of
  host operations (the excitation MLP, the ReLU it calls, the second batch-norm's scale and shift) and the affine region.
  The buffer contents at the segment boundaries are the fold `W0 … W5` through them; the launch theorem for a program of
  several regions gives, for every weakly fair execution, a final memory that holds `W5` at every buffer that is not
  scoped to a region.  Read at the result buffer this is the affine region's output array after all its write-backs;
  read at an argument it is the launch contents.
-/
import proofs.«176699_j28741921145092_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W5`, and every argument array ends as launched. -/
theorem run_named : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core is dealt anything else
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      -- the first thread state: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the last thread state holds every unscoped buffer at `W5`: read against the final state
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Whole

end
-- ==== Proof.Spec.lean ====
/-
  Squeeze-and-excitation followed by an inference-mode batch norm, over the extended reals: the pieces of mathematics the
  two programs share, stated once and free of either program.

  * The squeeze is the mean of each 64 × 64 plane.  One side multiplies the plane's sum by the float 2⁻¹², the other divides
    it by the float 4096; both patterns are exact powers of two, and division by a nonzero real is multiplication by its
    reciprocal on every extended real, the infinities included.
  * A plane's sum taken row by row (an inner sum over the last axis, then a sum of those) is the sum over all index pairs:
    addition of extended reals is commutative and associative, so no finiteness is needed to regroup it.
  * The last step is `x · (e · s) + (b − m · s)` with `s = g · r` on one side and `((x · e) · s) + (b − (m · g) · r)` on the other:
    multiplication of extended reals is associative (they form a commutative monoid with zero), so the two agree at every
    value, again with no finiteness hypothesis.
-/
import Idealize.ShloMosaic.PureOps.Ideal
import Idealize.ShloMosaic.PureOps.Ideal.Laws
import Idealize.ShloMosaic.Lib.ValueIdx

noncomputable section

namespace Cert.SqueezeExcite

open Idealize.ShloMosaic Idealize.ShloMosaic.ValueIdx

/-- The float `2.44140625e-4` is the real `1/4096`. -/
theorem ofBits_inv4096 : Ideal.ofBits .f32 0x39800000#32 = ((1 / 4096 : ℝ) : EReal) := by
  simp [Ideal.ofBits, Ideal.ieee, -EReal.coe_mul]; norm_num

/-- The float `4096.0` is the real `4096`. -/
theorem ofBits_4096 : Ideal.ofBits .f32 0x45800000#32 = ((4096 : ℝ) : EReal) := by
  simp [Ideal.ofBits, Ideal.ieee, -EReal.coe_mul]; norm_num

/-- The sum of the 64 × 64 plane of batch element `b`, channel `c`: rows outermost. -/
def planeSum (x : (⟨4, ![32, 512, 64, 64]⟩ : Shape).Idx → EReal) (b : Fin 32) (c : Fin 512) : EReal :=
  ∑ h : Fin 64, ∑ w : Fin 64, x (ix4 b c h w)

/-- The host's sum over the two spatial axes, at batch element `b` and channel `c`, is the initial value plus the plane's
    sum: the indices that drop to (b, c) are exactly the (b, c, h, w), one for each pair (h, w). -/
theorem hostReduce_plane (h' : (⟨4, ![32, 512, 64, 64]⟩ : Shape).ReducesTo [2, 3] ⟨2, ![32, 512]⟩)
    (x : (⟨4, ![32, 512, 64, 64]⟩ : Shape).Idx → EReal) (init : EReal) (b : Fin 32) (c : Fin 512) :
    Ideal.hostReduceAdd h' x init (ix2 b c) = init + planeSum x b c := by
  unfold Ideal.hostReduceAdd planeSum
  congr 1
  rw [← Finset.sum_product' (s := (Finset.univ : Finset (Fin 64))) (t := (Finset.univ : Finset (Fin 64)))
    (f := fun h w => x (ix4 b c h w))]
  have key : ∀ i : (⟨4, ![32, 512, 64, 64]⟩ : Shape).Idx, h'.drop i = ix2 b c →
      i = ix4 b c ⟨(i 2).val, (i 2).isLt⟩ ⟨(i 3).val, (i 3).isLt⟩ := by
    intro i hi
    funext a
    apply Fin.ext
    match a with
    | ⟨0, _⟩ =>
      have e := congrArg (fun j => (j 0).val) hi
      exact (h'.drop_apply_val_of_eq i 0 0).symm.trans e
    | ⟨1, _⟩ =>
      have e := congrArg (fun j => (j 1).val) hi
      exact (h'.drop_apply_val_of_eq i 1 1).symm.trans e
    | ⟨2, _⟩ => rfl
    | ⟨3, _⟩ => rfl
  refine Finset.sum_nbij' (fun i => ((⟨(i 2).val, (i 2).isLt⟩ : Fin 64), (⟨(i 3).val, (i 3).isLt⟩ : Fin 64)))
    (fun p => ix4 b c p.1 p.2) ?_ ?_ ?_ ?_ ?_
  · intro i _
    exact Finset.mem_product.mpr ⟨Finset.mem_univ _, Finset.mem_univ _⟩
  · intro p _
    refine Finset.mem_filter.mpr ⟨Finset.mem_univ _, ?_⟩
    funext a
    apply Fin.ext
    match a with
    | ⟨0, _⟩ => exact h'.drop_apply_val_of_eq (ix4 b c p.1 p.2) 0 0
    | ⟨1, _⟩ => exact h'.drop_apply_val_of_eq (ix4 b c p.1 p.2) 1 1
  · intro i hi
    exact (key i (Finset.mem_filter.mp hi).2).symm
  · intro p _
    rfl
  · intro i hi
    exact congrArg x (key i (Finset.mem_filter.mp hi).2)

/-- A sum started from the float zero and divided by `4096.0` is the sum times `2⁻¹²`, at every extended real. -/
theorem mean_eq (S : EReal) :
    Ideal.div (Ideal.ofBits .f32 0x00000000#32 + S) (Ideal.ofBits .f32 0x45800000#32) = S * Ideal.ofBits .f32 0x39800000#32 := by
  rw [Ideal.ofBits_zero_f32, zero_add, ofBits_4096, ofBits_inv4096, Ideal.div_coe (by norm_num)]

/-- Re-association of the two products in the scaled and shifted output. -/
theorem affine_assoc (x e g r b mm : EReal) :
    x * (e * (g * r)) + (b - mm * (g * r)) = x * e * (g * r) + (b - mm * g * r) := by
  rw [mul_assoc x e, mul_assoc mm g r]

end Cert.SqueezeExcite

end
-- ==== Proof.PoolRegion.lean ====
/-
  The pooling region.  Its grid is 8 × 4; at point (i, j) the input block is x[4i … 4i+3, 128j … 128j+127, :, :] and the
  output block is rows 4i … 4i+3, columns 128j … 128j+127 of the [32, 512, 1, 1] result.  The body sums its input block over
  the last axis, then over the remaining spatial axis, multiplies by the float 2⁻¹² and stores the [4, 128] result as a
  [4, 128, 1, 1] block.  So every point writes back its block of ONE whole array, `pooled x`: at (b, c, 0, 0) the sum of the
  plane x[b, c, :, :] times 2⁻¹².  The output blocks tile the result array, so after the last write-back the array is `pooled x`.
-/
import proofs.«176699_j28741921145092_2_alg».proof.Proof.Gen.KernelIdeal.Frame
import proofs.«176699_j28741921145092_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Pool

open Idealize.ShloMosaic Idealize.ShloMosaic.TcCoe Idealize.SL.Sem Idealize.ShloMosaic.ValueIdx
open Idealize.ShloMosaic.Pipeline (Dat)
open Cert.KernelIdeal Cert.KernelIdeal.Gen Cert.SqueezeExcite

/-- The pooled array: at (b, c, 0, 0) the mean of the plane x[b, c, :, :], as the plane's sum times the float 2⁻¹². -/
def pooled (x : S32x512x64x64.Idx → EReal) : S32x512x1x1.Idx → EReal :=
  fun i => planeSum x ⟨(i 0).val, (i 0).isLt⟩ ⟨(i 1).val, (i 1).isLt⟩ * Ideal.ofBits .f32 0x39800000#32

/-- The body's stored value at row `p`, column `q` of its block: the two lane sums are the double sum over the block's plane
    (p, q), and the shape cast to [4, 128, 1, 1] keeps the row-major position. -/
theorem pay0_apply (v0 : Vec Ideal S4x128x64x64 .f32) (j : S4x128x1x1.Idx) :
    k0_pay1 (F := Ideal) v0 j
      = (∑ h : Fin 64, ∑ w : Fin 64, v0 (ix4 ⟨(j 0).val, (j 0).isLt⟩ ⟨(j 1).val, (j 1).isLt⟩ h w)) * Ideal.ofBits .f32 0x39800000#32 := by
  obtain ⟨p, q, rfl⟩ : ∃ (p : Fin 4) (q : Fin 128), j = ix4 p q 0 0 :=
    ⟨j 0, j 1, funext fun a => Fin.ext (by
      match a with
      | ⟨0, _⟩ => rfl
      | ⟨1, _⟩ => rfl
      | ⟨2, _⟩ => have h2 : (j 2).val < 1 := (j 2).isLt; show (j 2).val = 0; omega
      | ⟨3, _⟩ => have h3 : (j 3).val < 1 := (j 3).isLt; show (j 3).val = 0; omega)⟩
  unfold k0_pay1
  dsimp only
  refine (shapeCast_apply _ shapeCasts_S4x128_S4x128x1x1 (ix4 p q 0 0) (ix2 p q) ?_).trans ?_
  · rw [Shape.rowMajor_val_two, Shape.rowMajor_val_four]
    show p.val * 128 + q.val = ((p.val * 128 + q.val) * 1 + 0) * 1 + 0
    omega
  · show (multiReduction .add [2] S4x128 (multiReduction .add [3] S4x128x64 v0 0x00000000#32 reduces_S4x128x64x64_S4x128x64 (.inl rfl) rfl) 0x00000000#32 reduces_S4x128x64_S4x128 (.inl rfl) rfl) (ix2 p q) * Ideal.ofBits .f32 0x39800000#32 = _
    congr 1
    refine (Ideal.multiReduction_add_single _ 0x00000000#32 reduces_S4x128x64_S4x128 (.inl rfl) rfl (ix2 p q)).trans ?_
    refine Finset.sum_congr rfl fun h _ => ?_
    refine (Ideal.multiReduction_add_single v0 0x00000000#32 reduces_S4x128x64x64_S4x128x64 (.inl rfl) rfl _).trans ?_
    refine Finset.sum_congr rfl fun w _ => ?_
    exact congrArg v0 (funext fun a => Fin.ext (by
      match a with
      | ⟨0, _⟩ => rfl
      | ⟨1, _⟩ => rfl
      | ⟨2, _⟩ => rfl
      | ⟨3, _⟩ => rfl))

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The two windows' index maps, decided over the grid: the input block sits over the output block on the batch and
    channel axes and at offset zero on the two spatial axes. -/
theorem idx_facts0 : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0 :=
  (by decide +kernel : ∀ t : Fin grid0.N, _)

/-- Every block position of the result is some grid point's. -/
theorem idx_onto0 : ∀ (q0 : Fin 8) (q1 : Fin 4), ∃ t : Fin cfg0.N, win0_1.index t = ![q0.val, q1.val, 0, 0] :=
  (by decide +kernel : ∀ (q0 : Fin 8) (q1 : Fin 4), ∃ t : Fin grid0.N, win0_1.index t = ![q0.val, q1.val, 0, 0])

/-- What point `t` writes back is its block of the pooled array of the region's input array. -/
theorem flushed0_eq (c : Dev nD) (t : Fin cfg0.N) :
    (dat0 V c).flushed 1 t = ((cfg0.win 1).blk t).view.read (Elt Ideal) (pooled (V c main_arg0)) := by
  show (cfg0.win 1).cut (grid0.coords t) ((dat0 V c).after 1 t) = _
  rw [after0_1]
  unfold out0_1
  rw [View.canon_unit_zero hz4]
  simp only [View.ld_unit_zero (S := S4x128x64x64) hz4]
  obtain ⟨e0, e1, e2, e3⟩ := idx_facts0 t
  funext j
  refine (pay0_apply _ j).trans ?_
  show _ = pooled (V c main_arg0) (((cfg0.win 1).blk t).view.emb j)
  unfold pooled planeSum
  congr 1
  refine Finset.sum_congr rfl fun h _ => Finset.sum_congr rfl fun w _ => ?_
  show V c main_arg0 (((cfg0.win 0).blk t).view.emb (ix4 ⟨(j 0).val, (j 0).isLt⟩ ⟨(j 1).val, (j 1).isLt⟩ h w)) = V c main_arg0 _
  refine congrArg (V c main_arg0) (funext fun a => Fin.ext ?_)
  match a with
  | ⟨0, _⟩ => show win0_0.index t (0 : Fin 4) * 4 + 1 * (j 0).val = win0_1.index t (0 : Fin 4) * 4 + 1 * (j 0).val; omega
  | ⟨1, _⟩ => show win0_0.index t (1 : Fin 4) * 128 + 1 * (j 1).val = win0_1.index t (1 : Fin 4) * 128 + 1 * (j 1).val; omega
  | ⟨2, _⟩ => show win0_0.index t (2 : Fin 4) * 64 + 1 * h.val = h.val; omega
  | ⟨3, _⟩ => show win0_0.index t (3 : Fin 4) * 64 + 1 * w.val = w.val; omega

/-- An index of the result is in point `t`'s block iff each coordinate is in the block's range on its axis. -/
theorem mem_blk0 (t : Fin cfg0.N) (i : S32x512x1x1.Idx) :
    i ∈ ((cfg0.win 1).blk t).view.set ↔ ∀ a : Fin 4, win0_1.index t a * S4x128x1x1.size a ≤ (i a).val ∧ (i a).val < win0_1.index t a * S4x128x1x1.size a + S4x128x1x1.size a := by
  show i ∈ ((View.whole main_v0).slice (win0_1.rect t)).set ↔ _
  rw [View.set_slice_whole, Rect.mem_set_unit]
  exact Iff.rfl

/-- The blocks tile the result: the point whose block holds (b, c, 0, 0) is the one at block position (b / 4, c / 128). -/
theorem cover0 (i : S32x512x1x1.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 1 := (i 2).isLt
  have hi3 : (i 3).val < 1 := (i 3).isLt
  obtain ⟨t, ht⟩ := idx_onto0 ⟨(i 0).val / 4, by omega⟩ ⟨(i 1).val / 128, by omega⟩
  have q0 : win0_1.index t (0 : Fin 4) = (i 0).val / 4 := congrFun ht 0
  have q1 : win0_1.index t (1 : Fin 4) = (i 1).val / 128 := congrFun ht 1
  have q2 : win0_1.index t (2 : Fin 4) = 0 := congrFun ht 2
  have q3 : win0_1.index t (3 : Fin 4) = 0 := congrFun ht 3
  refine ⟨t, flush0_1 t, ?_⟩
  rw [mem_blk0]
  intro a
  match a with
  | ⟨0, _⟩ => show win0_1.index t (0 : Fin 4) * 4 ≤ (i 0).val ∧ (i 0).val < win0_1.index t (0 : Fin 4) * 4 + 4; omega
  | ⟨1, _⟩ => show win0_1.index t (1 : Fin 4) * 128 ≤ (i 1).val ∧ (i 1).val < win0_1.index t (1 : Fin 4) * 128 + 128; omega
  | ⟨2, _⟩ => show win0_1.index t (2 : Fin 4) * 1 ≤ (i 2).val ∧ (i 2).val < win0_1.index t (2 : Fin 4) * 1 + 1; omega
  | ⟨3, _⟩ => show win0_1.index t (3 : Fin 4) * 1 ≤ (i 3).val ∧ (i 3).val < win0_1.index t (3 : Fin 4) * 1 + 1; omega

/-- The result array after the region: the pooled array of the region's input array. -/
theorem final0 (c : Dev nD) : (dat0 V c).arrAt 1 cfg0.N = pooled (V c main_arg0) :=
  (dat0 V c).arrAt_eq_of_cover 1 (pooled (V c main_arg0)) (fun t _ => flushed0_eq V c t) cover0

end Cert.KernelIdeal.Pool

end
-- ==== Proof.AffineRegion.lean ====
/-
  The scale-and-shift region.  Its grid is 8 × 4; at point (i, j) the block of x and of the result is
  [4i … 4i+3, 128j … 128j+127, :, :], the block of the per-(batch, channel) scale is rows 4i … 4i+3, columns 128j … 128j+127
  of a [32, 512, 1, 1] array and the block of the per-channel shift is columns 128j … 128j+127 of a [1, 512, 1, 1] array.
  The body broadcasts the two small blocks over the plane and stores x · scale + shift.  So every point writes back its
  block of ONE whole array, `affine x cs sh`: at (b, c, h, w) it is x[b,c,h,w] · cs[b,c,0,0] + sh[0,c,0,0].  The output blocks
  tile the result, so after the last write-back the result array is that function.
-/
import proofs.«176699_j28741921145092_2_alg».proof.Proof.Gen.KernelIdeal.Frame
import Idealize.ShloMosaic.Lib.Pipeline.Value
import Idealize.ShloMosaic.Lib.ValueIdx

set_option maxRecDepth 16384

noncomputable section

namespace Cert.KernelIdeal.Affine

open Idealize.ShloMosaic Idealize.ShloMosaic.TcCoe Idealize.SL.Sem Idealize.ShloMosaic.ValueIdx
open Idealize.ShloMosaic.Pipeline (Dat)
open Cert.KernelIdeal Cert.KernelIdeal.Gen

/-- The scaled and shifted array: x[b,c,h,w] · cs[b,c,0,0] + sh[0,c,0,0]. -/
def affine (x : S32x512x64x64.Idx → EReal) (cs : S32x512x1x1.Idx → EReal) (sh : S1x512x1x1.Idx → EReal) :
    S32x512x64x64.Idx → EReal :=
  fun i => x i * cs (ix4 ⟨(i 0).val, (i 0).isLt⟩ ⟨(i 1).val, (i 1).isLt⟩ 0 0) + sh (ix4 0 ⟨(i 1).val, (i 1).isLt⟩ 0 0)

/-- The body's stored value at an index of its block: the two broadcasts read the small blocks at the index's batch and
    channel coordinates, zero on their unit axes. -/
theorem pay1_apply (v0 : Vec Ideal S4x128x64x64 .f32) (v1 : Vec Ideal S4x128x1x1 .f32) (v5 : Vec Ideal S1x128x1x1 .f32)
    (y : S4x128x64x64.Idx) :
    k1_pay1 (F := Ideal) v0 v1 v5 y
      = v0 y * v1 (ix4 ⟨(y 0).val, (y 0).isLt⟩ ⟨(y 1).val, (y 1).isLt⟩ 0 0) + v5 (ix4 0 ⟨(y 1).val, (y 1).isLt⟩ 0 0) := by
  unfold k1_pay1
  dsimp only
  show v0 y * broadcastTo S4x128x64x64 (shapeCast S4x128x1x1 v1 shapeCasts_S4x128x1x1_S4x128x1x1) broadcasts_S4x128x1x1_S4x128x64x64 y
      + broadcastTo S4x128x64x64 (shapeCast S1x128x1x1 v5 shapeCasts_S1x128x1x1_S1x128x1x1) broadcasts_S1x128x1x1_S4x128x64x64 y = _
  rw [shapeCast_self, shapeCast_self]
  congr 1
  · congr 1
    exact broadcastTo_apply v1 broadcasts_S4x128x1x1_S4x128x64x64 y _ (fun a => by
      match a with
      | ⟨0, _⟩ => show (y 0).val = if (4 : Nat) = 1 then 0 else (y 0).val; rw [if_neg (by decide)]
      | ⟨1, _⟩ => show (y 1).val = if (128 : Nat) = 1 then 0 else (y 1).val; rw [if_neg (by decide)]
      | ⟨2, _⟩ => show 0 = if (1 : Nat) = 1 then 0 else (y 2).val; rw [if_pos rfl]
      | ⟨3, _⟩ => show 0 = if (1 : Nat) = 1 then 0 else (y 3).val; rw [if_pos rfl])
  · exact broadcastTo_apply v5 broadcasts_S1x128x1x1_S4x128x64x64 y _ (fun a => by
      match a with
      | ⟨0, _⟩ => show 0 = if (1 : Nat) = 1 then 0 else (y 0).val; rw [if_pos rfl]
      | ⟨1, _⟩ => show (y 1).val = if (128 : Nat) = 1 then 0 else (y 1).val; rw [if_neg (by decide)]
      | ⟨2, _⟩ => show 0 = if (1 : Nat) = 1 then 0 else (y 2).val; rw [if_pos rfl]
      | ⟨3, _⟩ => show 0 = if (1 : Nat) = 1 then 0 else (y 3).val; rw [if_pos rfl])

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The four windows' index maps, decided over the grid: the block of x sits over the result's block; the scale's block
    follows it on the batch and channel axes, the shift's on the channel axis; every other block coordinate is zero. -/
theorem idx_facts1 : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = win1_3.index t (3 : Fin 4)
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = 0 ∧ win1_2.index t (1 : Fin 4) = win1_3.index t (1 : Fin 4)
    ∧ win1_2.index t (2 : Fin 4) = 0 ∧ win1_2.index t (3 : Fin 4) = 0 :=
  (by decide +kernel : ∀ t : Fin grid1.N, _)

/-- Every block position of the result is some grid point's. -/
theorem idx_onto1 : ∀ (q0 : Fin 8) (q1 : Fin 4), ∃ t : Fin cfg1.N, win1_3.index t = ![q0.val, q1.val, 0, 0] :=
  (by decide +kernel : ∀ (q0 : Fin 8) (q1 : Fin 4), ∃ t : Fin grid1.N, win1_3.index t = ![q0.val, q1.val, 0, 0])

/-- What point `t` writes back is its block of the scaled and shifted array of the region's three input arrays. -/
theorem flushed1_eq (c : Dev nD) (t : Fin cfg1.N) :
    (dat1 V c).flushed 3 t
      = ((cfg1.win 3).blk t).view.read (Elt Ideal) (affine (V c main_arg0) (V c main_v27) (V c main_v28)) := by
  show (cfg1.win 3).cut (grid1.coords t) ((dat1 V c).after 3 t) = _
  rw [after1_3]
  unfold out1_3
  rw [View.canon_unit_zero hz4]
  simp only [View.ld_unit_zero (S := S4x128x64x64) hz4, View.ld_unit_zero (S := S4x128x1x1) hz4, View.ld_unit_zero (S := S1x128x1x1) hz4]
  obtain ⟨a0, a1, a2, a3, b0, b1, b2, b3, c0, c1, c2, c3⟩ := idx_facts1 t
  funext y
  refine (pay1_apply _ _ _ y).trans ?_
  show _ = affine (V c main_arg0) (V c main_v27) (V c main_v28) (((cfg1.win 3).blk t).view.emb y)
  unfold affine
  have hy0 : (y 0).val < 4 := (y 0).isLt
  have hy1 : (y 1).val < 128 := (y 1).isLt
  refine congrArg₂ (· + ·) (congrArg₂ (· * ·) ?_ ?_) ?_
  · show V c main_arg0 (((cfg1.win 0).blk t).view.emb y) = V c main_arg0 (((cfg1.win 3).blk t).view.emb y)
    refine congrArg (V c main_arg0) (funext fun a => Fin.ext ?_)
    match a with
    | ⟨0, _⟩ => show win1_0.index t (0 : Fin 4) * 4 + 1 * (y 0).val = win1_3.index t (0 : Fin 4) * 4 + 1 * (y 0).val; omega
    | ⟨1, _⟩ => show win1_0.index t (1 : Fin 4) * 128 + 1 * (y 1).val = win1_3.index t (1 : Fin 4) * 128 + 1 * (y 1).val; omega
    | ⟨2, _⟩ => show win1_0.index t (2 : Fin 4) * 64 + 1 * (y 2).val = win1_3.index t (2 : Fin 4) * 64 + 1 * (y 2).val; omega
    | ⟨3, _⟩ => show win1_0.index t (3 : Fin 4) * 64 + 1 * (y 3).val = win1_3.index t (3 : Fin 4) * 64 + 1 * (y 3).val; omega
  · show V c main_v27 (((cfg1.win 1).blk t).view.emb (ix4 ⟨(y 0).val, (y 0).isLt⟩ ⟨(y 1).val, (y 1).isLt⟩ 0 0)) = V c main_v27 _
    refine congrArg (V c main_v27) (funext fun a => Fin.ext ?_)
    match a with
    | ⟨0, _⟩ => show win1_1.index t (0 : Fin 4) * 4 + 1 * (y 0).val = win1_3.index t (0 : Fin 4) * 4 + 1 * (y 0).val; omega
    | ⟨1, _⟩ => show win1_1.index t (1 : Fin 4) * 128 + 1 * (y 1).val = win1_3.index t (1 : Fin 4) * 128 + 1 * (y 1).val; omega
    | ⟨2, _⟩ => show win1_1.index t (2 : Fin 4) * 1 + 1 * 0 = 0; omega
    | ⟨3, _⟩ => show win1_1.index t (3 : Fin 4) * 1 + 1 * 0 = 0; omega
  · show V c main_v28 (((cfg1.win 2).blk t).view.emb (ix4 0 ⟨(y 1).val, (y 1).isLt⟩ 0 0)) = V c main_v28 _
    refine congrArg (V c main_v28) (funext fun a => Fin.ext ?_)
    match a with
    | ⟨0, _⟩ => show win1_2.index t (0 : Fin 4) * 1 + 1 * 0 = 0; omega
    | ⟨1, _⟩ => show win1_2.index t (1 : Fin 4) * 128 + 1 * (y 1).val = win1_3.index t (1 : Fin 4) * 128 + 1 * (y 1).val; omega
    | ⟨2, _⟩ => show win1_2.index t (2 : Fin 4) * 1 + 1 * 0 = 0; omega
    | ⟨3, _⟩ => show win1_2.index t (3 : Fin 4) * 1 + 1 * 0 = 0; omega

/-- An index of the result is in point `t`'s block iff each coordinate is in the block's range on its axis. -/
theorem mem_blk1 (t : Fin cfg1.N) (i : S32x512x64x64.Idx) :
    i ∈ ((cfg1.win 3).blk t).view.set ↔ ∀ a : Fin 4, win1_3.index t a * S4x128x64x64.size a ≤ (i a).val ∧ (i a).val < win1_3.index t a * S4x128x64x64.size a + S4x128x64x64.size a := by
  show i ∈ ((View.whole main_v29).slice (win1_3.rect t)).set ↔ _
  rw [View.set_slice_whole, Rect.mem_set_unit]
  exact Iff.rfl

/-- The blocks tile the result: the point whose block holds (b, c, h, w) is the one at block position (b / 4, c / 128). -/
theorem cover1 (i : S32x512x64x64.Idx) :
    ∃ t : Fin cfg1.N, (cfg1.win 3).flush t = true ∧ i ∈ ((cfg1.win 3).blk t).view.set := by
  have hi0 : (i 0).val < 32 := (i 0).isLt
  have hi1 : (i 1).val < 512 := (i 1).isLt
  have hi2 : (i 2).val < 64 := (i 2).isLt
  have hi3 : (i 3).val < 64 := (i 3).isLt
  obtain ⟨t, ht⟩ := idx_onto1 ⟨(i 0).val / 4, by omega⟩ ⟨(i 1).val / 128, by omega⟩
  have q0 : win1_3.index t (0 : Fin 4) = (i 0).val / 4 := congrFun ht 0
  have q1 : win1_3.index t (1 : Fin 4) = (i 1).val / 128 := congrFun ht 1
  have q2 : win1_3.index t (2 : Fin 4) = 0 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 4 ≤ (i 0).val ∧ (i 0).val < win1_3.index t (0 : Fin 4) * 4 + 4; omega
  | ⟨1, _⟩ => show win1_3.index t (1 : Fin 4) * 128 ≤ (i 1).val ∧ (i 1).val < win1_3.index t (1 : Fin 4) * 128 + 128; omega
  | ⟨2, _⟩ => show win1_3.index t (2 : Fin 4) * 64 ≤ (i 2).val ∧ (i 2).val < win1_3.index t (2 : Fin 4) * 64 + 64; omega
  | ⟨3, _⟩ => show win1_3.index t (3 : Fin 4) * 64 ≤ (i 3).val ∧ (i 3).val < win1_3.index t (3 : Fin 4) * 64 + 64; omega

/-- The result array after the region: the scaled and shifted array of the region's three input arrays. -/
theorem final1 (c : Dev nD) :
    (dat1 V c).arrAt 3 cfg1.N = affine (V c main_arg0) (V c main_v27) (V c main_v28) :=
  (dat1 V c).arrAt_eq_of_cover 3 (affine (V c main_arg0) (V c main_v27) (V c main_v28)) (fun t _ => flushed1_eq V c t) cover1

end Cert.KernelIdeal.Affine

end
-- ==== Proof.HostStretch.lean ====
/-
  The host operations between the two regions, as functions of the pooled array and the arguments.

  From the pooled array s (read as [32, 512]) the excitation is two dense layers with an inference-mode batch norm and a
  ReLU between them: h = s · w1ᵀ, then (h − m1) · (g1 · rsqrt(v1 + ε)) + b1, then max(·, 0), then e = h · w2ᵀ.  The second
  batch norm's per-channel scale is a = g2 · rsqrt(v2 + ε).  The affine region receives the [32, 512, 1, 1] array e · a and the
  [1, 512, 1, 1] array b2 − m2 · a.  Read off the fold of the three stretches of host operations, these two arrays and the
  untouched argument x are what the affine region is entered with.
-/
import proofs.«176699_j28741921145092_2_alg».proof.Proof.Gen.KernelIdeal.Frame
import Idealize.ShloMosaic.Lib.StableHlo.Run

set_option maxRecDepth 16384

noncomputable section

namespace Cert.KernelIdeal.Stretch

open Idealize.ShloMosaic Idealize.ShloMosaic.TcCoe Idealize.SL.Sem
open Idealize.ShloMosaic.StableHlo
open Cert.KernelIdeal Cert.KernelIdeal.Gen

variable {F : FTy → Type} [FloatOps F]

/-- An inference-mode batch norm's per-channel scale over the 512 output channels: g · rsqrt(v + ε). -/
def bnScale (g v : FVec F S512 .f32) : FVec F S512 .f32 :=
  mulf g (Host.rsqrt (addf v (broadcastInDim S512 ![] bcast_S_S512 (constant S_ .f32 0x3A83126F#32))))

/-- The excitation: dense layer to 128 features, batch norm, ReLU, dense layer back to 512 channels. -/
def excite (s : FVec F S32x512 .f32) (w1 : FVec F S128x512 .f32) (g1 b1 m1 v1 : FVec F S128 .f32)
    (w2 : FVec F S512x128 .f32) : FVec F S32x512 .f32 :=
  Host.dotGeneral dot_S32x128_S512x128_S32x512_1_1_0_0_n_n none
    (maximumf
      (addf
        (mulf
          (subf (Host.dotGeneral dot_S32x512_S128x512_S32x128_1_1_0_0_n_n none s w1)
            (broadcastInDim S32x128 ![0, 1] bcast_S1x128_S32x128_0_1 (broadcastInDim S1x128 ![1] bcast_S128_S1x128_1 m1)))
          (broadcastInDim S32x128 ![0, 1] bcast_S1x128_S32x128_0_1
            (broadcastInDim S1x128 ![1] bcast_S128_S1x128_1
              (mulf g1 (Host.rsqrt (addf v1 (broadcastInDim S128 ![] bcast_S_S128 (constant S_ .f32 0x3A83126F#32))))))))
        (broadcastInDim S32x128 ![0, 1] bcast_S1x128_S32x128_0_1 (broadcastInDim S1x128 ![1] bcast_S128_S1x128_1 b1)))
      (broadcastInDim S32x128 ![] bcast_S_S32x128 (constant S_ .f32 0x00000000#32)))
    w2

/-- The [32, 512, 1, 1] scale the affine region receives: the excitation times the second batch norm's scale. -/
def scaleArr (p : FVec F S32x512x1x1 .f32) (w1 : FVec F S128x512 .f32) (g1 b1 m1 v1 : FVec F S128 .f32)
    (w2 : FVec F S512x128 .f32) (g2 v2 : FVec F S512 .f32) : FVec F S32x512x1x1 .f32 :=
  shapeCast S32x512x1x1
    (mulf (excite (shapeCast S32x512 p shapeCasts_S32x512x1x1_S32x512) w1 g1 b1 m1 v1 w2)
      (broadcastInDim S32x512 ![0, 1] bcast_S1x512_S32x512_0_1 (broadcastInDim S1x512 ![1] bcast_S512_S1x512_1 (bnScale g2 v2))))
    shapeCasts_S32x512_S32x512x1x1

/-- The [1, 512, 1, 1] shift the affine region receives: b2 − m2 · scale. -/
def shiftArr (g2 b2 m2 v2 : FVec F S512 .f32) : FVec F S1x512x1x1 .f32 :=
  shapeCast S1x512x1x1 (subf b2 (mulf m2 (bnScale g2 v2))) shapeCasts_S512_S1x512x1x1

variable (m : (ℓ : Loc nD τ sig) → Buf (Elt F) ℓ) (ρ : Dev nD → PrngReg)

set_option maxHeartbeats 2000000 in
/-- The scale array at the affine region's entry, from the contents the pooling region left. -/
theorem entry_scale (c : Dev nD) :
    W4 m ρ c (Proc.devRef .tc main_v27)
      = scaleArr (W1 m ρ c (Proc.devRef .tc main_v0)) (W1 m ρ c (Proc.devRef .tc main_arg1))
          (W1 m ρ c (Proc.devRef .tc main_arg2)) (W1 m ρ c (Proc.devRef .tc main_arg3)) (W1 m ρ c (Proc.devRef .tc main_arg4))
          (W1 m ρ c (Proc.devRef .tc main_arg5)) (W1 m ρ c (Proc.devRef .tc main_arg6)) (W1 m ρ c (Proc.devRef .tc main_arg7))
          (W1 m ρ c (Proc.devRef .tc main_arg10)) := by
  unfold W4 W3 W2
  simp only [hostOps1_2, hostOps1_1, hostOps1]
  after_results
  rfl

set_option maxHeartbeats 2000000 in
/-- The shift array at the affine region's entry. -/
theorem entry_shift (c : Dev nD) :
    W4 m ρ c (Proc.devRef .tc main_v28)
      = shiftArr (W1 m ρ c (Proc.devRef .tc main_arg7)) (W1 m ρ c (Proc.devRef .tc main_arg8))
          (W1 m ρ c (Proc.devRef .tc main_arg9)) (W1 m ρ c (Proc.devRef .tc main_arg10)) := by
  unfold W4 W3 W2
  simp only [hostOps1_2, hostOps1_1, hostOps1]
  after_results
  rfl

/-- No host operation and no region writes x: the affine region is entered with it as launched. -/
theorem entry_x (c : Dev nD) : W4 m ρ c (Proc.devRef .tc main_arg0) = m ((c : Thread nD τ).loc main_arg0) :=
  ((W5_arr m ρ c 0).trans (((dat1 (V4 m ρ) c).arrAt_in 0 rfl _).trans (A_eq1 (V4 m ρ) c 0))).symm.trans (W5_main_arg0 m ρ c)

/-- The pooling region writes only its result: after it every other argument is as launched. -/
theorem after_pool_arg1 (c : Dev nD) : W1 m ρ c (Proc.devRef .tc main_arg1) = m ((c : Thread nD τ).loc main_arg1) := W1_of_ne m ρ c main_arg1 (by decide)
theorem after_pool_arg2 (c : Dev nD) : W1 m ρ c (Proc.devRef .tc main_arg2) = m ((c : Thread nD τ).loc main_arg2) := W1_of_ne m ρ c main_arg2 (by decide)
theorem after_pool_arg3 (c : Dev nD) : W1 m ρ c (Proc.devRef .tc main_arg3) = m ((c : Thread nD τ).loc main_arg3) := W1_of_ne m ρ c main_arg3 (by decide)
theorem after_pool_arg4 (c : Dev nD) : W1 m ρ c (Proc.devRef .tc main_arg4) = m ((c : Thread nD τ).loc main_arg4) := W1_of_ne m ρ c main_arg4 (by decide)
theorem after_pool_arg5 (c : Dev nD) : W1 m ρ c (Proc.devRef .tc main_arg5) = m ((c : Thread nD τ).loc main_arg5) := W1_of_ne m ρ c main_arg5 (by decide)
theorem after_pool_arg6 (c : Dev nD) : W1 m ρ c (Proc.devRef .tc main_arg6) = m ((c : Thread nD τ).loc main_arg6) := W1_of_ne m ρ c main_arg6 (by decide)
theorem after_pool_arg7 (c : Dev nD) : W1 m ρ c (Proc.devRef .tc main_arg7) = m ((c : Thread nD τ).loc main_arg7) := W1_of_ne m ρ c main_arg7 (by decide)
theorem after_pool_arg8 (c : Dev nD) : W1 m ρ c (Proc.devRef .tc main_arg8) = m ((c : Thread nD τ).loc main_arg8) := W1_of_ne m ρ c main_arg8 (by decide)
theorem after_pool_arg9 (c : Dev nD) : W1 m ρ c (Proc.devRef .tc main_arg9) = m ((c : Thread nD τ).loc main_arg9) := W1_of_ne m ρ c main_arg9 (by decide)
theorem after_pool_arg10 (c : Dev nD) : W1 m ρ c (Proc.devRef .tc main_arg10) = m ((c : Thread nD τ).loc main_arg10) := W1_of_ne m ρ c main_arg10 (by decide)

end Cert.KernelIdeal.Stretch

end
-- ==== Proof.KernelValue.lean ====
/-
  The idealized kernel's result as one function of the arguments.

  The result buffer ends at the affine region's output array after its last write-back.  That array is `affine` of the three
  arrays the region is entered with; two of them are what the host operations make of the pooled array and the arguments,
  the third is x itself; and the pooled array is what the pooling region leaves from x.  Composed: the result is
  `affine x (scaleArr (pooled x) …) (shiftArr …)` of the launch contents of the eleven arguments.
-/
import proofs.«176699_j28741921145092_2_alg».proof.Proof.KernelRun
import proofs.«176699_j28741921145092_2_alg».proof.Proof.PoolRegion
import proofs.«176699_j28741921145092_2_alg».proof.Proof.AffineRegion
import proofs.«176699_j28741921145092_2_alg».proof.Proof.HostStretch

set_option maxRecDepth 16384

noncomputable section

namespace Cert.KernelIdeal.Whole

open Idealize.ShloMosaic Idealize.ShloMosaic.TcCoe Idealize.SL.Sem
open Cert.KernelIdeal Cert.KernelIdeal.Gen
open Cert.KernelIdeal.Pool Cert.KernelIdeal.Affine Cert.KernelIdeal.Stretch

variable (m : (ℓ : Loc nD τ sig) → Buf (Elt Ideal) ℓ) (ρ : Dev nD → PrngReg)

/-- The kernel's result on core `c`, from the launch contents of its arguments. -/
def result (c : Dev nD) : Buf (Elt Ideal) ((c.tc : Thread nD τ).loc main_v29) :=
  affine (m ((c.tc : Thread nD τ).loc main_arg0))
    (scaleArr (F := Ideal) (pooled (m ((c.tc : Thread nD τ).loc main_arg0))) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg10)))
    (shiftArr (F := Ideal) (m ((c.tc : Thread nD τ).loc main_arg7)) (m ((c.tc : Thread nD τ).loc main_arg8))
      (m ((c.tc : Thread nD τ).loc main_arg9)) (m ((c.tc : Thread nD τ).loc main_arg10)))

/-- The last boundary's contents at the result buffer are that function. -/
theorem last_contents (c : Dev nD) : W5 m ρ c (Proc.devRef .tc main_v29) = result m c := by
  refine (W5_arr m ρ c 3).trans ?_
  rw [final1 (V4 m ρ) c]
  show affine (W4 m ρ c (Proc.devRef .tc main_arg0)) (W4 m ρ c (Proc.devRef .tc main_v27)) (W4 m ρ c (Proc.devRef .tc main_v28)) = _
  rw [entry_x, entry_scale, entry_shift, after_pool_arg1, after_pool_arg2, after_pool_arg3, after_pool_arg4, after_pool_arg5,
    after_pool_arg6, after_pool_arg7, after_pool_arg8, after_pool_arg9, after_pool_arg10,
    show W1 m ρ c (Proc.devRef .tc main_v0) = (dat0 (V0 m ρ) c).arrAt 1 cfg0.N from W1_arr m ρ c 1, final0 (V0 m ρ) c]
  rfl

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (last_contents m ρ c), (h c).2⟩) (run_named m ρ)

end Cert.KernelIdeal.Whole

end
-- ==== Proof.Bridge.lean ====
/-
  The two programs compute one function of the arguments, at every extended real.

  The kernel's result is `affine x cs sh` with `cs = e · a` (as [32, 512, 1, 1]) and `sh = b2 − m2 · a` (as [1, 512, 1, 1]), where
  `e` is the excitation of the pooled array and `a = g2 · rsqrt(v2 + ε)`.  The reference's result is
  `(x · e') · a + (b2 − (m2 · g2) · rsqrt(v2 + ε))`, with `e'` the same excitation of the reference's plane means.

  * The pooled array read as [32, 512] IS the reference's array of plane means (`pooled_cast`): at (b, c) one side is the
    plane's sum times 2⁻¹², the other the host's sum over the two spatial axes from zero, divided by 4096.
  * Hence the two excitations are one array: they are the same operations applied to equal arrays.
  * At an index (b, c, h, w) what is left is the re-association of two products of extended reals.
-/
import proofs.«176699_j28741921145092_2_alg».proof.Proof.Spec
import proofs.«176699_j28741921145092_2_alg».proof.Proof.PoolRegion
import proofs.«176699_j28741921145092_2_alg».proof.Proof.AffineRegion
import proofs.«176699_j28741921145092_2_alg».proof.Proof.HostStretch
import proofs.«176699_j28741921145092_2_alg».proof.Proof.Gen.ReferenceIdeal.Read
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Cert.KernelIdeal Cert.KernelIdeal.Facts₀ Cert.KernelIdeal.Facts Cert.SqueezeExcite
open Cert.KernelIdeal.Pool Cert.KernelIdeal.Affine Cert.KernelIdeal.Stretch

/-- The scale array at (b, c, 0, 0): the excitation at (b, c) times the batch norm's scale at channel c. -/
theorem scale_at (p : FVec Ideal S32x512x1x1 .f32) (x1 : FVec Ideal S128x512 .f32) (x2 x3 x4 x5 : FVec Ideal S128 .f32)
    (x6 : FVec Ideal S512x128 .f32) (x7 x10 : FVec Ideal S512 .f32) (b : Fin 32) (c : Fin 512) :
    scaleArr p x1 x2 x3 x4 x5 x6 x7 x10 (ix4 b c 0 0)
      = excite (shapeCast S32x512 p shapeCasts_S32x512x1x1_S32x512) x1 x2 x3 x4 x5 x6 (ix2 b c) * bnScale x7 x10 (ix1 c) := by
  unfold scaleArr
  refine (shapeCast_apply _ shapeCasts_S32x512_S32x512x1x1 (ix4 b c 0 0) (ix2 b c) ?_).trans ?_
  · rw [Shape.rowMajor_val_two, Shape.rowMajor_val_four]
    show b.val * 512 + c.val = ((b.val * 512 + c.val) * 1 + 0) * 1 + 0
    omega
  · show excite (shapeCast S32x512 p shapeCasts_S32x512x1x1_S32x512) x1 x2 x3 x4 x5 x6 (ix2 b c)
        * broadcastInDim S32x512 ![0, 1] bcast_S1x512_S32x512_0_1 (broadcastInDim S1x512 ![1] bcast_S512_S1x512_1 (bnScale x7 x10)) (ix2 b c) = _
    congr 1
    refine (broadcastInDim_apply _ bcast_S1x512_S32x512_0_1 _ (ix2 b c) (ix2 0 c) (fun a => ?_)).trans ?_
    · match a with
      | ⟨0, _⟩ => show 0 = if (1 : Nat) = 1 then 0 else b.val; rw [if_pos rfl]
      | ⟨1, _⟩ => show c.val = if (512 : Nat) = 1 then 0 else c.val; rw [if_neg (by decide)]
    · exact broadcastInDim_apply _ bcast_S512_S1x512_1 (bnScale x7 x10) (ix2 0 c) (ix1 c) (fun a => by
        match a with
        | ⟨0, _⟩ => show c.val = if (512 : Nat) = 1 then 0 else c.val; rw [if_neg (by decide)])

/-- The shift array at (0, c, 0, 0): b2 − m2 · scale at channel c. -/
theorem shift_at (x7 x8 x9 x10 : FVec Ideal S512 .f32) (c : Fin 512) :
    shiftArr x7 x8 x9 x10 (ix4 0 c 0 0) = x8 (ix1 c) - x9 (ix1 c) * bnScale x7 x10 (ix1 c) := by
  unfold shiftArr
  refine (shapeCast_apply _ shapeCasts_S512_S1x512x1x1 (ix4 0 c 0 0) (ix1 c) ?_).trans rfl
  rw [Shape.rowMajor_val_one, Shape.rowMajor_val_four]
  show c.val = ((0 * 512 + c.val) * 1 + 0) * 1 + 0
  omega

/-- The pooled array, read as [32, 512], is the reference's array of plane means. -/
theorem pooled_cast (x0 : FVec Ideal S32x512x64x64 .f32) :
    shapeCast S32x512 (pooled x0) shapeCasts_S32x512x1x1_S32x512 = Cert.ReferenceIdeal.Read.val_main_v2 (F := Ideal) x0 := by
  funext i
  obtain ⟨b, c, rfl⟩ : ∃ (b : Fin 32) (c : Fin 512), i = ix2 b c := ⟨i 0, i 1, eq_ix2 i⟩
  refine (shapeCast_apply _ shapeCasts_S32x512x1x1_S32x512 (ix2 b c) (ix4 b c 0 0) ?_).trans ?_
  · rw [Shape.rowMajor_val_two, Shape.rowMajor_val_four]
    show ((b.val * 512 + c.val) * 1 + 0) * 1 + 0 = b.val * 512 + c.val
    omega
  · show planeSum x0 b c * Ideal.ofBits .f32 0x39800000#32
        = Ideal.div (Ideal.hostReduceAdd Cert.ReferenceIdeal.Facts₀.reducesTo_S32x512x64x64_S32x512_d2_3 x0 (Ideal.ofBits .f32 0x00000000#32) (ix2 b c))
            (Ideal.ofBits .f32 0x45800000#32)
    rw [hostReduce_plane, mean_eq]

/-- So the two excitations are one array. -/
theorem excite_eq (x0 : FVec Ideal S32x512x64x64 .f32) (x1 : FVec Ideal S128x512 .f32) (x2 x3 x4 x5 : FVec Ideal S128 .f32)
    (x6 : FVec Ideal S512x128 .f32) :
    excite (shapeCast S32x512 (pooled x0) shapeCasts_S32x512x1x1_S32x512) x1 x2 x3 x4 x5 x6
      = Cert.ReferenceIdeal.Read.val_main_v18 (F := Ideal) x0 x1 x2 x3 x4 x5 x6 := by
  rw [pooled_cast]
  rfl

/-- THE BRIDGE: the kernel's result array is the reference's, as functions of the eleven argument arrays. -/
theorem kernel_eq_reference (x0 : FVec Ideal S32x512x64x64 .f32) (x1 : FVec Ideal S128x512 .f32) (x2 x3 x4 x5 : FVec Ideal S128 .f32)
    (x6 : FVec Ideal S512x128 .f32) (x7 x8 x9 x10 : FVec Ideal S512 .f32) :
    affine x0 (scaleArr (pooled x0) x1 x2 x3 x4 x5 x6 x7 x10) (shiftArr x7 x8 x9 x10)
      = Cert.ReferenceIdeal.Read.val_main_v37 (F := Ideal) x0 x1 x2 x3 x4 x5 x6 x7 x8 x9 x10 := by
  funext i
  have h19 : Cert.ReferenceIdeal.Read.idx_main_v19 (Cert.ReferenceIdeal.Read.idx_main_v20 i)
      = ix2 ⟨(i 0).val, (i 0).isLt⟩ ⟨(i 1).val, (i 1).isLt⟩ := funext fun a => Fin.ext (by
    match a with
    | ⟨0, _⟩ => rfl
    | ⟨1, _⟩ => rfl)
  have h26 : Cert.ReferenceIdeal.Read.idx_main_v26 (Cert.ReferenceIdeal.Read.idx_main_v34 i) = ix1 ⟨(i 1).val, (i 1).isLt⟩ :=
    funext fun a => Fin.ext (by
      match a with
      | ⟨0, _⟩ => rfl)
  have h33 : Cert.ReferenceIdeal.Read.idx_main_v33 (Cert.ReferenceIdeal.Read.idx_main_v36 i) = ix1 ⟨(i 1).val, (i 1).isLt⟩ :=
    funext fun a => Fin.ext (by
      match a with
      | ⟨0, _⟩ => rfl)
  rw [Cert.ReferenceIdeal.Read.val_main_v37_apply, Cert.ReferenceIdeal.Read.val_main_v35_apply, Cert.ReferenceIdeal.Read.val_main_v21_apply,
    Cert.ReferenceIdeal.Read.val_main_v20_apply, Cert.ReferenceIdeal.Read.val_main_v19_apply, Cert.ReferenceIdeal.Read.val_main_v34_apply,
    Cert.ReferenceIdeal.Read.val_main_v26_apply, Cert.ReferenceIdeal.Read.val_main_v36_apply, Cert.ReferenceIdeal.Read.val_main_v33_apply,
    h19, h26, h33, ← excite_eq]
  unfold affine
  rw [scale_at, shift_at]
  exact affine_assoc (x0 i) _ (x7 (ix1 ⟨(i 1).val, (i 1).isLt⟩))
    (FloatOps.hostUnary .rsqrt (x10 (ix1 ⟨(i 1).val, (i 1).isLt⟩) + Ideal.ofBits .f32 0x3A83126F#32))
    (x8 (ix1 ⟨(i 1).val, (i 1).isLt⟩)) (x9 (ix1 ⟨(i 1).val, (i 1).isLt⟩))

end Cert.Bridge

end
-- ==== Proof.lean ====
/-
  Squeeze-and-excitation with a final inference-mode batch norm: a two-region kernel against its jnp reference.

  The kernel pools x over its 64 × 64 planes in one region (plane sum times the float 2⁻¹²), runs the small excitation
  network and the batch-norm constants as host operations, and applies `x · (e · a) + (b2 − m2 · a)`, `a = g2 · rsqrt(v2 + ε)`, in a
  second region.  The reference takes the plane means as a two-axis sum divided by 4096, runs the same excitation, and
  returns `(x · e) · a + (b2 − (m2 · g2) · rsqrt(v2 + ε))`.

  Over the extended reals the two are one function of the arguments: 2⁻¹² and 4096 are exact, dividing by 4096 is
  multiplying by 2⁻¹² at every extended real, a sum of extended reals may be regrouped freely, and multiplication of
  extended reals is associative.  None of these steps needs the inputs to be finite, so the precondition is not opened.

  The three frames are the programs' runs with the result forgotten; the idealization rewrote no operation, so its
  faithfulness claim is trivially true; the value claim puts the kernel's run, read as one function of the arguments
  (Proof/KernelValue.lean), beside the reference's run and closes with the bridge (Proof/Bridge.lean).
-/
import proofs.«176699_j28741921145092_2_alg».proof.Defs
import proofs.«176699_j28741921145092_2_alg».proof.Proof.Gen.Kernel
import proofs.«176699_j28741921145092_2_alg».proof.Proof.Gen.Kernel.Skeleton
import proofs.«176699_j28741921145092_2_alg».proof.Proof.Gen.Kernel.Launch
import proofs.«176699_j28741921145092_2_alg».proof.Proof.Gen.Kernel.Points
import proofs.«176699_j28741921145092_2_alg».proof.Proof.Gen.Kernel.Frame
import proofs.«176699_j28741921145092_2_alg».proof.Proof.Gen.KernelIdeal
import proofs.«176699_j28741921145092_2_alg».proof.Proof.Gen.KernelIdeal.Skeleton
import proofs.«176699_j28741921145092_2_alg».proof.Proof.Gen.KernelIdeal.Launch
import proofs.«176699_j28741921145092_2_alg».proof.Proof.Gen.KernelIdeal.Points
import proofs.«176699_j28741921145092_2_alg».proof.Proof.Gen.KernelIdeal.Frame
import proofs.«176699_j28741921145092_2_alg».proof.Proof.Gen.ReferenceIdeal
import proofs.«176699_j28741921145092_2_alg».proof.Proof.Gen.Pre_finite_inputs
import proofs.«176699_j28741921145092_2_alg».proof.Proof.Gen.ReferenceIdeal.Run
import proofs.«176699_j28741921145092_2_alg».proof.Proof.Gen.ReferenceIdeal.Read
import proofs.«176699_j28741921145092_2_alg».proof.Proof.KernelValue
import proofs.«176699_j28741921145092_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the two idealized programs end with equal results: the kernel's result
    array is `result` of its launch contents, the reference's is its composed term, and the two are one function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [e0, e1, e2, e3, e4, e5, e6, e7, e8, e9, e10]
  exact (Cert.Bridge.kernel_eq_reference _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
